-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x8 .f32) (main_arg2 : IVec S2097152 32) (main_arg3 : IVec S4096x4096 32) (main_arg4 : FVec F S4096x1 .f32) (main_arg5 : FVec F S4096x1 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg5
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg6 main_v13 main_v16
-- ==== Kernel.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S8192x4096 : Shape := ⟨2, ![8192, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 61
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152x8, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .bf16⟩
  | .hbm, ⟨56, _⟩ => ⟨S8192x4096, .f32⟩
  | .hbm, ⟨57, _⟩ => ⟨S8192x4096, .bf16⟩
  | .hbm, ⟨58, _⟩ => ⟨S1x4096, .f32⟩
  | .hbm, ⟨59, _⟩ => ⟨S8192x4096, .f32⟩
  | .hbm, ⟨60, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S4096x8_S2097152x1_S2097152x8_1_0_n_n_0_1_18_wf : GatherDims.WF S4096x8 S2097152x1 S2097152x8 [1] [0] [] [0] [] 1 ![1, 8]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v30) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8 : Shape := ⟨2, ![4096, 8]⟩
abbrev S2097152 : Shape := ⟨1, ![2097152]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S_, .i32⟩
  | .hbm, ⟨8, _⟩ => ⟨S2097152, .i32⟩
  | .hbm, ⟨9, _⟩ => ⟨S2097152, .i1⟩
  | .hbm, ⟨10, _⟩ => ⟨S_, .i32⟩
  | .hbm, ⟨11, _⟩ => ⟨S2097152, .i32⟩
  | .hbm, ⟨12, _⟩ => ⟨S2097152, .i32⟩
  | .hbm, ⟨13, _⟩ => ⟨S2097152, .i32⟩
  | .hbm, ⟨14, _⟩ => ⟨S2097152x1, .i32⟩
  | .hbm, ⟨15, _⟩ => ⟨S2097152x8, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4x2048x4096, .f32⟩
  | .hbm, ⟨56, _⟩ => ⟨S1x1x4096, .f32⟩
  | .hbm, ⟨57, _⟩ => ⟨S4x2048x4096, .f32⟩
  | .hbm, ⟨58, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x8_S2097152x1_S2097152x8_1_0_n_n_0_1_18_wf : GatherDims.WF S4096x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.EntryArrays.lean ====
/-
  What the three staged arrays hold when the kernel is launched.

  The host lines before the launch compute: the activations, the input [4,2048,4096] re-laid as [8192,4096] and cast to
  bf16; the weights, the dequantised matrix (codebook gather, rectified sigmoid, affine reconstruction — the very
  operations the reference program applies, here named by the reference's own stage) cast to bf16; and the bias, the
  vector [4096] re-laid as the row [1,4096].  Each is the composed term of the host operations, read off the run of the
  operation list.
-/
import proofs.«126591_j21878563405861_2_alg».proof.Proof.Gen.KernelIdeal.Frame
import proofs.«126591_j21878563405861_2_alg».proof.Proof.Gen.ReferenceIdeal.Read
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable {F : FTy → Type} [FloatOps F]
variable (m : (ℓ : Loc nD τ sig) → Buf (Elt F) ℓ)

set_option maxHeartbeats 2000000 in
/-- The bias row: the bias vector re-laid as [1,4096]. -/
theorem bias_entry (c : Dev nD) :
    (V m c main_v31 : (⟨S1x4096, .f32⟩ : BufTy).Contents (Elt F))
      = shapeCast S1x4096 (m ((c : Thread nD τ).loc main_arg6)) shapeCasts_S4096_S1x4096 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The activations: the input re-laid as [8192,4096], in bf16. -/
theorem x_entry (c : Dev nD) :
    (V m c main_v30 : (⟨S8192x4096, .bf16⟩ : BufTy).Contents (Elt F))
      = truncf .bf16 (shapeCast S8192x4096 (m ((c : Thread nD τ).loc main_arg0)) shapeCasts_S4x2048x4096_S8192x4096) bitsLt_bf16_f32 := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 2000000 in
/-- The weights: the dequantised matrix, the same function of the codebook, the indices, the integer base, the scale and
    the zero point that the reference program computes, in bf16. -/
theorem w_entry (c : Dev nD) :
    (V m c main_v28 : (⟨S4096x4096, .bf16⟩ : BufTy).Contents (Elt F))
      = truncf .bf16 (Cert.ReferenceIdeal.Read.val_main_v27 (F := F) (m ((c : Thread nD τ).loc main_arg1)) (m ((c : Thread nD τ).loc main_arg2))
          (m ((c : Thread nD τ).loc main_arg3)) (m ((c : Thread nD τ).loc main_arg4)) (m ((c : Thread nD τ).loc main_arg5))) bitsLt_bf16_f32 := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Entry

end
-- ==== Proof.Pieces.lean ====
/-
  What one run of the body leaves behind, as values.

  At a first step of the contraction axis the scratch accumulator ends holding the accumulation's value computed over
  the reset's zeros; at a last step it ends holding the accumulation's value over what the step before left, and the
  output tile ends holding that plus the bias row.  Each is the one covering store's value, its loads reading whole
  buffers (the inputs' blocks, the scratch as the previous store left it).
-/
import proofs.«126591_j21878563405861_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first step: the scratch ends at the accumulation over the reset's zeros. -/
theorem scratch_first (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- A last step: the scratch ends at the accumulation over what the step before left. -/
theorem scratch_last (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x2048) hz,
    View.ld_unit_zero (S := S1024x1024) hz]

/-- A last step: the output tile ends at that accumulation plus the bias row. -/
theorem tile_last (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 x0 x1 xs0) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread,
    View.ld_unit_zero (S := S1024x2048) hz, View.ld_unit_zero (S := S1024x1024) hz, View.ld_unit_zero (S := S1x1024) hz]
  rw [View.readCov_unit_zero (S := S1024x1024) _ hz]

end Cert.KernelIdeal.Pieces

end
-- ==== Proof.Blocks.lean ====
/-
  The blocks the kernel is handed, read at an index, and what the accumulation over the grid leaves.

  The grid has 64 points, t = (8·i + 2·j + k) for the row tile i < 8, the column tile j < 4 and the half k < 2 of the
  contraction axis, k running fastest.  At point t the activations' block is rows 1024·i … of columns 2048·k …, the
  weights' block is rows 1024·j … of columns 2048·k …, the bias block is columns 1024·j … of the bias row, and the
  output block is rows 1024·i …, columns 1024·j ….  An element of a block sits in its array at block index × block
  size + its coordinate inside the block.

  At an even point (k = 0) the accumulator is reset and ends at the first half's products; at the odd point after it
  (k = 1, same i and j) the second half is added and the output tile is stored with the bias.
-/
import proofs.«126591_j21878563405861_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The windows' block indices in closed form, decided over the grid. -/
theorem index_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The activations' block at a point, at an element: the array at block index × block size + the element's coordinate. -/
theorem x_block (c : Dev nD) (t : Fin cfg0.N) (r : Fin 1024) (p : Fin 2048) (g : S8192x4096.Idx)
    (h0 : (g 0).val = win0_0.index t (0 : Fin 2) * 1024 + r.val) (h1 : (g 1).val = win0_0.index t (1 : Fin 2) * 2048 + p.val) :
    (iblk m c 0 t : Vec F S1024x2048 .bf16) (ix2 r p) = (V m c main_v30 : Vec F S8192x4096 .bf16) g := by
  unfold iblk
  rw [View.read_apply]
  show V m c main_v30 (((cfg0.win 0).blk t).view.emb (ix2 r p)) = V m c main_v30 g
  refine congrArg _ (funext fun a => Fin.ext ?_)
  match a with
  | ⟨0, _⟩ => show win0_0.index t (0 : Fin 2) * 1024 + 1 * r.val = (g 0).val; omega
  | ⟨1, _⟩ => show win0_0.index t (1 : Fin 2) * 2048 + 1 * p.val = (g 1).val; omega

/-- The weights' block at a point, at an element. -/
theorem w_block (c : Dev nD) (t : Fin cfg0.N) (q : Fin 1024) (p : Fin 2048) (g : S4096x4096.Idx)
    (h0 : (g 0).val = win0_1.index t (0 : Fin 2) * 1024 + q.val) (h1 : (g 1).val = win0_1.index t (1 : Fin 2) * 2048 + p.val) :
    (iblk m c 1 t : Vec F S1024x2048 .bf16) (ix2 q p) = (V m c main_v28 : Vec F S4096x4096 .bf16) g := by
  unfold iblk
  rw [View.read_apply]
  show V m c main_v28 (((cfg0.win 1).blk t).view.emb (ix2 q p)) = V m c main_v28 g
  refine congrArg _ (funext fun a => Fin.ext ?_)
  match a with
  | ⟨0, _⟩ => show win0_1.index t (0 : Fin 2) * 1024 + 1 * q.val = (g 0).val; omega
  | ⟨1, _⟩ => show win0_1.index t (1 : Fin 2) * 2048 + 1 * p.val = (g 1).val; omega

/-- The bias block at a point, at an element. -/
theorem b_block (c : Dev nD) (t : Fin cfg0.N) (q : Fin 1024) (g : S1x4096.Idx)
    (h0 : (g 0).val = win0_2.index t (0 : Fin 2) * 1 + 0) (h1 : (g 1).val = win0_2.index t (1 : Fin 2) * 1024 + q.val) :
    (iblk m c 2 t : Vec F S1x1024 .f32) (ix2 0 q) = (V m c main_v31 : Vec F S1x4096 .f32) g := by
  unfold iblk
  rw [View.read_apply]
  show V m c main_v31 (((cfg0.win 2).blk t).view.emb (ix2 0 q)) = V m c main_v31 g
  refine congrArg _ (funext fun a => Fin.ext ?_)
  match a with
  | ⟨0, _⟩ => show win0_2.index t (0 : Fin 2) * 1 + 1 * 0 = (g 0).val; omega
  | ⟨1, _⟩ => show win0_2.index t (1 : Fin 2) * 1024 + 1 * q.val = (g 1).val; omega

/-- The point before an odd point: the same tile's first half. -/
abbrev prev (t : Fin cfg0.N) : Fin cfg0.N := ⟨t.val - 1, Nat.lt_of_le_of_lt (Nat.sub_le _ _) t.isLt⟩

/-- After an even point the accumulator holds the accumulation of that point's blocks over the reset's zeros. -/
theorem acc_even (c : Dev nD) (t : Fin cfg0.N) (h0 : t.val % 2 = 0) :
    (outsAt0 m c t.val t.isLt).2 = k0_pay2 (iblk m c 0 t) (iblk m c 1 t) (k0_pay1 (F := F)) := by
  have h1 : ¬t.val % 2 = 1 := by omega
  rw [outsAt0_A m c t h0 h1]
  dsimp only
  exact Cert.KernelIdeal.Pieces.scratch_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t) (iblk m c 2 t)

/-- After an odd point the output tile holds: the accumulation of its blocks over the accumulation of the point before's
    blocks over zeros, plus the bias block. -/
theorem tile_odd (c : Dev nD) (t : Fin cfg0.N) (h1 : t.val % 2 = 1) :
    (outsAt0 m c t.val t.isLt).1
      = k0_pay3 (k0_pay2 (iblk m c 0 t) (iblk m c 1 t) (k0_pay2 (iblk m c 0 (prev t)) (iblk m c 1 (prev t)) (k0_pay1 (F := F)))) (iblk m c 2 t) := by
  have h0 : ¬t.val % 2 = 0 := by omega
  rw [outsAt0_B m c t h0 h1]
  dsimp only
  refine (Cert.KernelIdeal.Pieces.tile_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2).trans ?_
  rw [show (outsAt0 m c (t.val - 1) (Nat.lt_of_le_of_lt (Nat.sub_le _ _) t.isLt)).2
      = k0_pay2 (iblk m c 0 (prev t)) (iblk m c 1 (prev t)) (k0_pay1 (F := F)) from acc_even m c (prev t) (by show (t.val - 1) % 2 = 0; omega)]

end Cert.KernelIdeal.Blocks

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.Payloads.lean ====
/-
  The three values the kernel body stores, read at an index, on the extended reals.

  With D the product's dimension numbers (axis 1 of each operand contracted, 2048 long), at row r and column c of a
  1024 × 1024 tile:
    * the reset stores 0;
    * the accumulation stores  acc(r,c) + ∑ p < 2048, x(r,p) · w(c,p)   (a product into the zero accumulator, added
      to what the scratch held);
    * the last step stores  acc(r,c) + b(0,c)   (the bias row broadcast down the rows).
-/
import proofs.«126591_j21878563405861_2_alg».proof.Proof.Gen.KernelIdeal.Skeleton
import proofs.«126591_j21878563405861_2_alg».proof.Proof.LibContract
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The product's dimension numbers: x[1024,2048] · w[1024,2048]ᵀ. -/
abbrev D : DotDims S1024x2048 S1024x2048 S1024x1024 := dot_S1024x2048_S1024x2048_S1024x1024_1_1_0_0_n_n

/-- The left operand is read at the output's row … -/
theorem lhs_row (i : S1024x1024.Idx) (q : D.contr.Idx) : (D.lhsIdx i q 0).val = (i 0).val := by
  unfold DotDims.lhsIdx
  rw [dif_neg (show ¬(0 : Fin S1024x2048.rank) ∈ D.lhsBatch by decide),
    dif_pos (show (0 : Fin S1024x2048.rank) ∈ D.lhsNonContracting by decide)]
  rfl

/-- … and the right operand at the output's column, as ITS row. -/
theorem rhs_row (i : S1024x1024.Idx) (q : D.contr.Idx) : (D.rhsIdx i q 0).val = (i 1).val := by
  unfold DotDims.rhsIdx
  rw [dif_neg (show ¬(0 : Fin S1024x2048.rank) ∈ D.rhsBatch by decide),
    dif_pos (show (0 : Fin S1024x2048.rank) ∈ D.rhsNonContracting by decide)]
  rfl

/-- The reset's value: zero everywhere. -/
theorem reset_apply (j : S1024x1024.Idx) : k0_pay1 (F := Ideal) j = 0 := by
  unfold k0_pay1
  rw [shapeCast_self]
  exact Ideal.ofBits_zero_f32

/-- The accumulation's value at (r, c). -/
theorem accum_apply (x w : Vec Ideal S1024x2048 .bf16) (acc : Vec Ideal S1024x1024 .f32) (r c : Fin 1024) :
    k0_pay2 (F := Ideal) x w acc (ix2 r c) = acc (ix2 r c) + ∑ p : Fin 2048, x (ix2 r p) * w (ix2 c p) := by
  unfold k0_pay2
  rw [shapeCast_self, shapeCast_self, shapeCast_self, addf_apply]
  refine congrArg (acc (ix2 r c) + ·) ?_
  refine Cert.Lib.Contract.matmul_zero_single D none 2048 rfl rfl x w (ix2 r c) (fun p => ix2 r p) (fun p => ix2 c p)
    (fun k q hq => funext fun a => Fin.ext ?_) (fun k q hq => funext fun a => Fin.ext ?_)
  · match a with
    | ⟨0, _⟩ => exact lhs_row _ q
    | ⟨1, _⟩ => exact (D.lhsIdx_val_of_single rfl _ q).trans hq
  · match a with
    | ⟨0, _⟩ => exact rhs_row _ q
    | ⟨1, _⟩ => exact (D.rhsIdx_val_of_single rfl _ q).trans hq

/-- The last step's value at (r, c): the accumulator plus the bias row's entry for column c. -/
theorem biased_apply (acc : Vec Ideal S1024x1024 .f32) (b : Vec Ideal S1x1024 .f32) (r c : Fin 1024) :
    k0_pay3 (F := Ideal) acc b (ix2 r c) = acc (ix2 r c) + b (ix2 0 c) := by
  unfold k0_pay3
  rw [shapeCast_self, addf_apply]
  refine congrArg (acc (ix2 r c) + ·) ?_
  exact broadcastTo_apply b broadcasts_S1x1024_S1024x1024 (ix2 r c) (ix2 0 c) (fun a => match a with
    | ⟨0, _⟩ => by show (0 : ℕ) = if (1 : ℕ) = 1 then 0 else _; rw [if_pos rfl]
    | ⟨1, _⟩ => by show c.val = if (1024 : ℕ) = 1 then 0 else _; rw [if_neg (by decide)]; rfl)

end Cert.KernelIdeal.Pay

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.TwoTiles.lean ====
/-
  An accumulator started at zero that adds the two halves of a sum over 4096 terms holds the whole sum.

  For f on Fin 4096:  (0 + ∑ p < 2048, f p) + ∑ p < 2048, f (2048 + p) = ∑ k < 4096, f k.
  The left side is the partial sum of the first 2048 terms grown by one more tile of 2048 terms; only the
  commutative monoid laws of + are used, so the identity holds on the extended reals with no finiteness assumed.
-/
import proofs.«126591_j21878563405861_2_alg».proof.Proof.LibSumTiles

open scoped BigOperators

namespace Cert.TwoTiles

open Cert.SumTiles

variable {β : Type*} [AddCommMonoid β]

/-- Zero, plus the first 2048 terms, plus the last 2048 terms, is the sum of all 4096. -/
theorem acc_two_halves (f : Fin 4096 → β) :
    (0 + ∑ p : Fin 2048, f ⟨p.val, by have := p.isLt; omega⟩)
      + ∑ p : Fin 2048, f ⟨2048 + p.val, by have := p.isLt; omega⟩ = ∑ k : Fin 4096, f k := by
  rw [← psum_first_tile f 2048 (by omega), ← psum_add_tile f 2048 2048 (by omega)]
  exact psum_full f

end Cert.TwoTiles
-- ==== Proof.TileValue.lean ====
/-
  The value of one output tile.

  The result matrix:  out(r, c) = ∑ k < 4096, x(r,k) · w(c,k) + b(0,c)   for x [8192,4096], w [4096,4096] and the bias
  row b [1,4096]  (x · wᵀ plus the bias on every row).

  An output tile is finished in two steps of the contraction axis.  The first step stores  0 + ∑ p < 2048 x(ρ r, p) · w(γ c, p)
  into the accumulator, the second adds  ∑ p < 2048 x(ρ r, 2048 + p) · w(γ c, 2048 + p)  and stores the accumulator plus
  b(0, γ c),  where ρ and γ place the tile's rows and columns in the arrays.  The two half sums after the zero are the
  whole sum over 4096 terms, so the tile holds  out(ρ r, γ c).
-/
import proofs.«126591_j21878563405861_2_alg».proof.Proof.Payloads
import proofs.«126591_j21878563405861_2_alg».proof.Proof.TwoTiles

noncomputable section

open scoped BigOperators

namespace Cert.KernelIdeal.Tile

open Cert.KernelIdeal Cert.KernelIdeal.Gen Cert.KernelIdeal.Pay Idealize.ShloMosaic Idealize.ShloMosaic.ValueIdx

/-- x · wᵀ plus the bias row, entry by entry. -/
def out (x : Vec Ideal S8192x4096 .bf16) (w : Vec Ideal S4096x4096 .bf16) (b : Vec Ideal S1x4096 .f32) : Vec Ideal S8192x4096 .f32 :=
  fun j => (∑ k : Fin 4096, x (ix2 (j 0) k) * w (ix2 (j 1) k)) + b (ix2 0 (j 1))

theorem out_apply (x : Vec Ideal S8192x4096 .bf16) (w : Vec Ideal S4096x4096 .bf16) (b : Vec Ideal S1x4096 .f32) (r : Fin 8192) (c : Fin 4096) :
    out x w b (ix2 r c) = (∑ k : Fin 4096, x (ix2 r k) * w (ix2 c k)) + b (ix2 0 c) := rfl

/-- The first 2048 positions of the contraction axis, and the last 2048. -/
abbrev lo (p : Fin 2048) : Fin 4096 := ⟨p.val, by have := p.isLt; omega⟩
abbrev hi (p : Fin 2048) : Fin 4096 := ⟨2048 + p.val, by have := p.isLt; omega⟩

/-- A tile after its two steps: blocks x₀ w₀ at the first step and x₁ w₁ at the second read the arrays at rows ρ, γ and
    at the two halves of the contraction axis; the bias block reads the bias row at γ. -/
theorem two_steps (X : Vec Ideal S8192x4096 .bf16) (W : Vec Ideal S4096x4096 .bf16) (B : Vec Ideal S1x4096 .f32)
    (x₀ w₀ x₁ w₁ : Vec Ideal S1024x2048 .bf16) (b : Vec Ideal S1x1024 .f32) (ρ : Fin 1024 → Fin 8192) (γ : Fin 1024 → Fin 4096)
    (hx₀ : ∀ r p, x₀ (ix2 r p) = X (ix2 (ρ r) (lo p))) (hw₀ : ∀ c p, w₀ (ix2 c p) = W (ix2 (γ c) (lo p)))
    (hx₁ : ∀ r p, x₁ (ix2 r p) = X (ix2 (ρ r) (hi p))) (hw₁ : ∀ c p, w₁ (ix2 c p) = W (ix2 (γ c) (hi p)))
    (hb : ∀ c, b (ix2 0 c) = B (ix2 0 (γ c))) (r c : Fin 1024) :
    k0_pay3 (F := Ideal) (k0_pay2 x₁ w₁ (k0_pay2 x₀ w₀ (k0_pay1 (F := Ideal)))) b (ix2 r c) = out X W B (ix2 (ρ r) (γ c)) := by
  rw [biased_apply, accum_apply, accum_apply, reset_apply, hb, out_apply]
  simp only [hx₀, hw₀, hx₁, hw₁]
  exact congrArg (· + B (ix2 0 (γ c))) (Cert.TwoTiles.acc_two_halves fun k => X (ix2 (ρ r) k) * W (ix2 (γ c) k))

end Cert.KernelIdeal.Tile

end
-- ==== Proof.KernelValue.lean ====
/-
  What the kernel program leaves in its result.

  Every odd grid point writes its output tile back; the tile at the point for row tile i and column tile j holds
  out(1024·i + r, 1024·j + c)  at (r, c), where  out = x · wᵀ + bias row  of the three arrays staged at the launch
  (the two steps of a tile add the two halves of the contraction axis).  The 32 tiles cover the [8192,4096] result, so it
  ends holding  out ; the host line after the launch re-lays it as [4,2048,4096].
-/
import proofs.«126591_j21878563405861_2_alg».proof.Proof.Blocks
import proofs.«126591_j21878563405861_2_alg».proof.Proof.TileValue
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Tile

variable (m : (ℓ : Loc nD τ sig) → Buf (Elt Ideal) ℓ) (ρ : Dev nD → PrngReg)

/-- The result matrix of the three arrays as the launch finds them. -/
abbrev result (c : Dev nD) : Vec Ideal S8192x4096 .f32 := out (V m c main_v30) (V m c main_v28) (V m c main_v31)

/-- Two tiles equal at every (row, column) are equal. -/
theorem tile_ext (u v : Vec Ideal S1024x1024 .f32) (h : ∀ r q : Fin 1024, u (ix2 r q) = v (ix2 r q)) : u = v :=
  funext fun y => by rw [eq_ix2 y]; exact h _ _

/-- Row r of row tile i, and column q of column tile j, in the arrays. -/
abbrev rowOf (i : Fin 8) (r : Fin 1024) : Fin 8192 := ⟨i.val * 1024 + r.val, by have := i.isLt; have := r.isLt; omega⟩
abbrev colOf (j : Fin 4) (q : Fin 1024) : Fin 4096 := ⟨j.val * 1024 + q.val, by have := j.isLt; have := q.isLt; omega⟩

/-- What an odd point writes back is its block of the result matrix. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 64 := lt_of_lt_of_eq t.isLt (show cfg0.N = 64 from N_0)
  obtain ⟨e00, e01, e10, e11, e20, e21, e30, e31⟩ := index_facts t
  obtain ⟨p00, p01, p10, p11, -, -, -, -⟩ := index_facts (prev t)
  have hp : (prev t).val = t.val - 1 := rfl
  show (cfg0.win 3).cut (grid0.coords t) ((dats m 0 c).after 3 t) = _
  rw [after0_3, tile_odd m c t h1]
  refine tile_ext _ _ (fun r q => ?_)
  rw [View.read_apply]
  show _ = result m c (((cfg0.win 3).blk t).view.emb (ix2 r q))
  have hemb : ((cfg0.win 3).blk t).view.emb (ix2 r q) = ix2 (rowOf ⟨t.val / 8, by omega⟩ r) (colOf ⟨t.val / 2 % 4, by omega⟩ q) :=
    funext fun a => Fin.ext (by
      match a with
      | ⟨0, _⟩ => show win0_3.index t (0 : Fin 2) * 1024 + 1 * r.val = t.val / 8 * 1024 + r.val; omega
      | ⟨1, _⟩ => show win0_3.index t (1 : Fin 2) * 1024 + 1 * q.val = t.val / 2 % 4 * 1024 + q.val; omega)
  rw [hemb]
  exact two_steps (V m c main_v30) (V m c main_v28) (V m c main_v31) (iblk m c 0 (prev t)) (iblk m c 1 (prev t)) (iblk m c 0 t) (iblk m c 1 t) (iblk m c 2 t)
    (rowOf ⟨t.val / 8, by omega⟩) (colOf ⟨t.val / 2 % 4, by omega⟩)
    (fun r p => x_block m c (prev t) r p _ (by show t.val / 8 * 1024 + r.val = _; omega) (by show p.val = _; omega))
    (fun q p => w_block m c (prev t) q p _ (by show t.val / 2 % 4 * 1024 + q.val = _; omega) (by show p.val = _; omega))
    (fun r p => x_block m c t r p _ (by show t.val / 8 * 1024 + r.val = _; omega) (by show 2048 + p.val = _; omega))
    (fun q p => w_block m c t q p _ (by show t.val / 2 % 4 * 1024 + q.val = _; omega) (by show 2048 + p.val = _; omega))
    (fun q => b_block m c t q _ (by show 0 = _; omega) (by show t.val / 2 % 4 * 1024 + q.val = _; omega))
    r q

/-- An index of the result is in a point's output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v32).slice (win0_3.rect t)).set ↔ _
  rw [View.set_slice_whole, Rect.mem_set_unit]
  exact Iff.rfl

/-- The result array after the launch: the result matrix (row r, column c is in the tile of the odd point for the row
    tile r / 1024 and the column tile c / 1024). -/
theorem final (c : Dev nD) : (dats m 0 c).arrAt 3 cfg0.N = result m c :=
  (dats m 0 c).arrAt_eq_of_cover 3 (result m c) (flushed_eq m c) fun i => by
    have h0 : (i 0).val < 8192 := (i 0).isLt
    have h1 : (i 1).val < 4096 := (i 1).isLt
    have hlt : (i 0).val / 1024 * 8 + (i 1).val / 1024 * 2 + 1 < cfg0.N := by rw [show cfg0.N = 64 from N_0]; omega
    obtain ⟨-, -, -, -, -, -, e30, e31⟩ := index_facts ⟨_, hlt⟩
    refine ⟨⟨_, hlt⟩, (flush0_3 _).mpr (by show ((i 0).val / 1024 * 8 + (i 1).val / 1024 * 2 + 1) % 2 = 1; omega), ?_⟩
    rw [mem_blk]
    have v : (⟨(i 0).val / 1024 * 8 + (i 1).val / 1024 * 2 + 1, hlt⟩ : Fin cfg0.N).val = (i 0).val / 1024 * 8 + (i 1).val / 1024 * 2 + 1 := rfl
    intro a
    match a with
    | ⟨0, _⟩ =>
      show win0_3.index ⟨_, hlt⟩ (0 : Fin 2) * 1024 ≤ (i 0).val ∧ (i 0).val < win0_3.index ⟨_, hlt⟩ (0 : Fin 2) * 1024 + 1024
      omega
    | ⟨1, _⟩ =>
      show win0_3.index ⟨_, hlt⟩ (1 : Fin 2) * 1024 ≤ (i 1).val ∧ (i 1).val < win0_3.index ⟨_, hlt⟩ (1 : Fin 2) * 1024 + 1024
      omega

end Cert.KernelIdeal.Whole

end
-- ==== Proof.KernelRun.lean ====
/-
  The kernel program's run, read: its result, [4,2048,4096], is the result matrix re-laid, and its arguments end
  unchanged.  The one host line after the launch re-lays the [8192,4096] array the launch wrote.
-/
import proofs.«126591_j21878563405861_2_alg».proof.Proof.KernelValue
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- After the host line that follows the launch, the program's result is the result matrix re-laid as [4,2048,4096]. -/
theorem tail_eq (c : Dev nD) :
    Pipeline.afterTail₀ cfgs (dats m) 0 (V0 m) [hostOps1] c main_v33
      = shapeCast S4x2048x4096 (result m c) shapeCasts_S8192x4096_S4x2048x4096 := by
  unfold Pipeline.afterTail₀
  show StableHlo.after hostOps1 _ (Proc.devRef .tc main_v33) = _
  after_results
  rw [show Pipeline.withArrays (cfgs 0).spec c (V0 m c) (fun w => (dats m 0 c).arrAt w (cfgs 0).N) (Proc.devRef .tc main_v32) = result m c from
    (Pipeline.withArrays_arr spec0 launch0.win.arr_inj c _ _ 3).trans (final m c)]
  rfl

/-- Every weakly fair execution of the kernel program terminates with its result at the result matrix re-laid and its
    arguments as launched. -/
theorem run : θ_run defs (onTc (τ := τ) (main (F := Ideal))) ⟨m, fun _ => 0, ρ⟩ fun r => ∀ c : Dev nD,
      r.2.mem ((c.tc : Thread nD τ).loc main_v33) = shapeCast S4x2048x4096 (result m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefBridge.lean ====
/-
  The reference's result is the kernel's result matrix re-laid.

  The reference computes, at (a, b, o) of [4,2048,4096],  ∑ k < 4096, x(a,b,k) · W(o,k) + bias(o)  with W the
  dequantised weights.  The kernel's result matrix  out  is taken of the activations re-laid as [8192,4096] (row
  2048·a + b holds x(a,b,·); a change of float format is the identity on the extended reals), the same W, and the bias
  re-laid as a row; re-laid as [4,2048,4096] its entry (a, b, o) is out(2048·a + b, o): the same sum and the same bias
  entry.
-/
import proofs.«126591_j21878563405861_2_alg».proof.Proof.TileValue
import proofs.«126591_j21878563405861_2_alg».proof.Proof.Gen.ReferenceIdeal.Read
import Idealize.ShloMosaic.Lib.ValueIdx
import Idealize.ShloMosaic.Lib.Pipeline.Value

noncomputable section

open scoped BigOperators

namespace Cert.Bridge

open Cert.KernelIdeal Cert.KernelIdeal.Tile Idealize.ShloMosaic Idealize.ShloMosaic.ValueIdx

/-- The activations re-laid: row 2048·a + b of [8192,4096] is x(a,b,·). -/
theorem relaid_x (x : Vec Ideal S4x2048x4096 .f32) (a : Fin 4) (b : Fin 2048) (k : Fin 4096) (r : Fin 8192) (hr : r.val = a.val * 2048 + b.val)
    (h : S4x2048x4096.ShapeCasts S8192x4096) : shapeCast S8192x4096 x h (ix2 r k) = x (ix3 a b k) :=
  shapeCast_apply x h (ix2 r k) (ix3 a b k) (by
    rw [Shape.rowMajor_val_three, Shape.rowMajor_val_two]
    show (a.val * 2048 + b.val) * 4096 + k.val = r.val * 4096 + k.val
    rw [hr])

/-- The result matrix re-laid: entry (a, b, o) of [4,2048,4096] is entry (2048·a + b, o). -/
theorem relaid_out (y : Vec Ideal S8192x4096 .f32) (a : Fin 4) (b : Fin 2048) (o : Fin 4096) (r : Fin 8192) (hr : r.val = a.val * 2048 + b.val)
    (h : S8192x4096.ShapeCasts S4x2048x4096) : shapeCast S4x2048x4096 y h (ix3 a b o) = y (ix2 r o) :=
  shapeCast_apply y h (ix3 a b o) (ix2 r o) (by
    rw [Shape.rowMajor_val_three, Shape.rowMajor_val_two]
    show r.val * 4096 + o.val = (a.val * 2048 + b.val) * 4096 + o.val
    rw [hr])

/-- The bias re-laid as a row: entry (0, o) is bias(o). -/
theorem relaid_bias (v : Vec Ideal S4096 .f32) (o : Fin 4096) (h : S4096.ShapeCasts S1x4096) :
    shapeCast S1x4096 v h (ix2 0 o) = v (ix1 o) :=
  shapeCast_apply v h (ix2 0 o) (ix1 o) (by
    rw [Shape.rowMajor_val_one, Shape.rowMajor_val_two]
    show o.val = 0 * 4096 + o.val
    omega)

/-- The kernel's result, re-laid, is the reference's result. -/
theorem result_eq (x0 : Vec Ideal S4x2048x4096 .f32) (x1 : Vec Ideal S4096x8 .f32) (x2 : (⟨S2097152, .i32⟩ : BufTy).Contents (Elt Ideal))
    (x3 : (⟨S4096x4096, .i32⟩ : BufTy).Contents (Elt Ideal)) (x4 x5 : Vec Ideal S4096x1 .f32) (x6 : Vec Ideal S4096 .f32)
    (hx : S4x2048x4096.ShapeCasts S8192x4096) (hy : S8192x4096.ShapeCasts S4x2048x4096) (hv : S4096.ShapeCasts S1x4096)
    (hb : FTy.bf16.bits < FTy.f32.bits) :
    shapeCast S4x2048x4096
        (out (truncf (F := Ideal) (s := S8192x4096) .bf16 (shapeCast S8192x4096 x0 hx) hb)
          (truncf (F := Ideal) (s := S4096x4096) .bf16 (Cert.ReferenceIdeal.Read.val_main_v27 (F := Ideal) x1 x2 x3 x4 x5) hb)
          (shapeCast S1x4096 x6 hv))
        hy
      = Cert.ReferenceIdeal.Read.val_main_v31 (F := Ideal) x0 x1 x2 x3 x4 x5 x6 := by
  funext i
  obtain ⟨a, b, o, rfl⟩ : ∃ (a : Fin 4) (b : Fin 2048) (o : Fin 4096), i = ix3 a b o := ⟨i 0, i 1, i 2, eq_ix3 i⟩
  rw [relaid_out _ a b o ⟨a.val * 2048 + b.val, by have := a.isLt; have := b.isLt; omega⟩ rfl, out_apply,
    Cert.ReferenceIdeal.Read.val_main_v31_apply, Cert.ReferenceIdeal.Read.val_main_v28_apply,
    Cert.ReferenceIdeal.Read.val_main_v30_apply, Cert.ReferenceIdeal.Read.val_main_v29_apply, relaid_bias]
  refine congrArg₂ (· + ·) (Finset.sum_congr rfl fun k _ => ?_) (congrArg x6 (funext fun d => ?_))
  · rw [truncf_apply, truncf_apply, relaid_x x0 a b k _ rfl hx]
    refine congrArg₂ (· * ·) (congrArg x0 (funext fun d => ?_)) (congrArg _ (funext fun d => ?_))
    · match d with
      | ⟨0, _⟩ => rfl
      | ⟨1, _⟩ => rfl
      | ⟨2, _⟩ => rfl
    · match d with
      | ⟨0, _⟩ => rfl
      | ⟨1, _⟩ => rfl
  · match d with
    | ⟨0, _⟩ => rfl

end Cert.Bridge

end
-- ==== Proof.lean ====
/-
  A quantised linear layer: out = x · Wqᵀ + bias, with Wq dequantised on the host.

  Both programs first rebuild the weight matrix Wq [4096,4096] from a codebook gather, a rectified sigmoid and an
  affine integer reconstruction — the same host operations with the same constants in both, so one function of the
  codebook, the indices, the integer base, the scale and the zero point.  The reference then contracts x [4,2048,4096]
  with Wq over the last axis and adds the bias.  The kernel re-lays x as [8192,4096], and computes the product tile by
  tile on an 8 × 4 × 2 grid: a 1024 × 1024 output tile is accumulated over the two halves of the contraction axis in a
  scratch buffer started at zero, and stored with the bias row at the second half; the result is re-laid as
  [4,2048,4096].

  On the extended reals a change of float format is the identity and  (0 + ∑ first half) + ∑ second half  is the sum over
  the whole axis (associativity and commutativity of + only: no finiteness is used), so entry (a, b, o) of the kernel's
  result,  out(2048·a + b, o),  is the reference's  ∑ k x(a,b,k) · Wq(o,k) + bias(o).

  The three frames are the generated ones (the reference's is its run with the result dropped); the idealisation
  rewrote nothing.
-/
import proofs.«126591_j21878563405861_2_alg».proof.Defs
import proofs.«126591_j21878563405861_2_alg».proof.Proof.Gen.Kernel
import proofs.«126591_j21878563405861_2_alg».proof.Proof.Gen.Kernel.Frame
import proofs.«126591_j21878563405861_2_alg».proof.Proof.Gen.KernelIdeal
import proofs.«126591_j21878563405861_2_alg».proof.Proof.Gen.KernelIdeal.Frame
import proofs.«126591_j21878563405861_2_alg».proof.Proof.Gen.ReferenceIdeal
import proofs.«126591_j21878563405861_2_alg».proof.Proof.Gen.Pre_finite_inputs
import proofs.«126591_j21878563405861_2_alg».proof.Proof.Gen.ReferenceIdeal.Run
import proofs.«126591_j21878563405861_2_alg».proof.Proof.Gen.ReferenceIdeal.Read
import proofs.«126591_j21878563405861_2_alg».proof.Proof.EntryArrays
import proofs.«126591_j21878563405861_2_alg».proof.Proof.KernelRun
import proofs.«126591_j21878563405861_2_alg».proof.Proof.RefBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel program ends with the result matrix re-laid and the
    reference with ∑ k x(a,b,k) · Wq(o,k) + bias(o): the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2.1, (hagree c).2.2.2.2.2.2]
  show _ = shapeCast _ (Cert.KernelIdeal.Tile.out (Cert.KernelIdeal.Gen.V m c Cert.KernelIdeal.main_v30)
    (Cert.KernelIdeal.Gen.V m c Cert.KernelIdeal.main_v28) (Cert.KernelIdeal.Gen.V m c Cert.KernelIdeal.main_v31)) _
  rw [Cert.KernelIdeal.Entry.x_entry, Cert.KernelIdeal.Entry.w_entry, Cert.KernelIdeal.Entry.bias_entry]
  exact (Cert.Bridge.result_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
